-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x16 : Shape := ⟨2, ![4096, 16]⟩
abbrev S16 : Shape := ⟨1, ![16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x16 .f32) (main_arg3 : FVec F S16 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x16 : Shape := ⟨2, ![4096, 16]⟩
abbrev S16 : Shape := ⟨1, ![16]⟩
abbrev S1x16 : Shape := ⟨2, ![1, 16]⟩
abbrev S_ : Shape := ⟨0, ![]⟩
abbrev S8192x4096 : Shape := ⟨2, ![8192, 4096]⟩
abbrev S2048x512 : Shape := ⟨2, ![2048, 512]⟩
abbrev S1024x512 : Shape := ⟨2, ![1024, 512]⟩
abbrev S1024x16 : Shape := ⟨2, ![1024, 16]⟩
abbrev S512x16 : Shape := ⟨2, ![512, 16]⟩
abbrev S2048x1024 : Shape := ⟨2, ![2048, 1024]⟩

abbrev nBuf : Space → Nat
  | .hbm => 14
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S4096x16, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S_, .f32⟩
  | .hbm, ⟨9, _⟩ => ⟨S4096x16, .f32⟩
  | .hbm, ⟨10, _⟩ => ⟨S4096x16, .f32⟩
  | .hbm, ⟨11, _⟩ => ⟨S8192x4096, .f32⟩
  | .hbm, ⟨12, _⟩ => ⟨S8192x4096, .f32⟩
  | .hbm, ⟨13, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1024x16, .f32⟩
  | .local _ .vmem, ⟨5, _⟩ => ⟨S1024x16, .f32⟩
  | .local _ .vmem, ⟨6, _⟩ => ⟨S512x16, .f32⟩
  | .local _ .vmem, ⟨7, _⟩ => ⟨S512x16, .f32⟩
  | .local _ .vmem, ⟨8, _⟩ => ⟨S2048x1024, .f32⟩
  | .local _ .vmem, ⟨9, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  shapeCasts_S4x2048x4096_S8192x4096 : S4x2048x4096.ShapeCasts S8192x4096
  inb_S2048x1024_S2048x1024_0_0 : ∀ a, (![0, 0] : Fin 2 → Nat) a + S2048x1024.size a ≤ S2048x1024.size a
  h_S2048x1024 : 0 < S2048x1024.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S512x16_S512x16_0_0 : ∀ a, (![0, 0] : Fin 2 → Nat) a + S512x16.size a ≤ S512x16.size a
  h_S512x16 : 0 < S512x16.numel
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  shapeCasts_S2048x1024_S2048x1024 : S2048x1024.ShapeCasts S2048x1024
  shapeCasts_S8192x4096_S4x2048x4096 : S8192x4096.ShapeCasts S4x2048x4096
  dot_S1024x16_S512x16_S1024x512_1_1_0_0_n_n_wf : DotDims.WF S1024x16 S512x16 S1024x512 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .f32 = 32 ∨ (Rect.block (s := S4096x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .f32 = 32 ∨ (Rect.block (s := S4096x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S1024x16_S512x16_S1024x512_1_1_0_0_n_n : DotDims S1024x16 S512x16 S1024x512 where
  lhsContracting := [1]
  rhsContracting := [1]
  lhsNonContracting := [0]
  rhsNonContracting := [0]
  lhsBatch := []
  rhsBatch := []
  wf := dot_S1024x16_S512x16_S1024x512_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v5) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x16 : Shape := ⟨2, ![4096, 16]⟩
abbrev S16 : Shape := ⟨1, ![16]⟩
abbrev S1x16 : Shape := ⟨2, ![1, 16]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S4096x16, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096 : S_.BroadcastsInDim S4096x4096 (![] : Fin 0 → Fin S4096x4096.rank)
  dot_S4096x16_S4096x16_S4096x4096_1_1_0_0_n_n_wf : DotDims.WF S4096x16 S4096x16 S4096x4096 [1] [1] [0] [0] [] []
  dot_S4x2048x4096_S4096x4096_S4x2048x4096_2_1_01_0_n_n_wf : DotDims.WF S4x2048x4096 S4096x4096 S4x2048x4096 [2] [1] [0, 1] [0] [] []

variable [Facts₀]

def dot_S4096x16_S4096x16_S4096x4096_1_1_0_0_n_n : DotDims S4096x16 S4096x16 S4096x4096 where
  lhsContracting := [1]
  rhsContracting := [1]
  lhsNonContracting := [0]
  rhsNonContracting := [0]
  lhsBatch := []
  rhsBatch := []
  wf := dot_S4096x16_S4096x16_S4096x4096_1_1_0_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
import Idealize.ShloMosaic.PureOps.Ideal
import Idealize.ShloMosaic.Lib.ValueIdx

noncomputable section

open scoped BigOperators
open Idealize.ShloMosaic Idealize.ShloMosaic.ValueIdx

/-! The function both programs compute, on the flattened activations X (8192 rows of 4096 features), the base
    weight W (4096 × 4096), and the two low-rank factors Us, Vt (4096 × 16 each):

      out(row, o) = Σ_l X(row, l) · (W(o, l) + Σ_r Us(o, r) · Vt(l, r)).

    The sum over the 4096 features l is also written as a running sum over the first n of them, which is how a
    product accumulated 512 columns at a time builds it up. Only the commutative-monoid laws of + are used, so
    everything here holds on the extended reals with no finiteness assumption. -/

namespace Cert.AdaptedProduct

/-- Entry (o, l) of the adapted weight: the base weight plus the rank-16 update. -/
def adapted (W : FVec Ideal ⟨2, ![4096, 4096]⟩ .f32) (Us Vt : FVec Ideal ⟨2, ![4096, 16]⟩ .f32) (o l : Fin 4096) : EReal :=
  W (ix2 o l) + ∑ r : Fin 16, Us (ix2 o r) * Vt (ix2 l r)

/-- Entry (row, o) of the product of the activations with the transposed adapted weight. -/
def prodAt (X : FVec Ideal ⟨2, ![8192, 4096]⟩ .f32) (W : FVec Ideal ⟨2, ![4096, 4096]⟩ .f32)
    (Us Vt : FVec Ideal ⟨2, ![4096, 16]⟩ .f32) (row : Fin 8192) (o : Fin 4096) : EReal :=
  ∑ l : Fin 4096, X (ix2 row l) * adapted W Us Vt o l

/-- The whole product as an array. -/
def out2 (X : FVec Ideal ⟨2, ![8192, 4096]⟩ .f32) (W : FVec Ideal ⟨2, ![4096, 4096]⟩ .f32)
    (Us Vt : FVec Ideal ⟨2, ![4096, 16]⟩ .f32) : FVec Ideal ⟨2, ![8192, 4096]⟩ .f32 :=
  fun i => prodAt X W Us Vt (i 0) (i 1)

/-- A feature index from a natural number (reduced modulo 4096, so that it is total). -/
def feat (a : ℕ) : Fin 4096 := ⟨a % 4096, Nat.mod_lt _ (by decide)⟩

theorem feat_val (a : ℕ) : (feat a).val = a % 4096 := rfl

theorem feat_coe (l : Fin 4096) : feat l.val = l := Fin.ext (Nat.mod_eq_of_lt l.isLt)

/-- The running sum over the first n features. -/
def partAt (X : FVec Ideal ⟨2, ![8192, 4096]⟩ .f32) (W : FVec Ideal ⟨2, ![4096, 4096]⟩ .f32)
    (Us Vt : FVec Ideal ⟨2, ![4096, 16]⟩ .f32) (row : Fin 8192) (o : Fin 4096) (n : ℕ) : EReal :=
  ∑ l ∈ Finset.range n, X (ix2 row (feat l)) * adapted W Us Vt o (feat l)

variable (X : FVec Ideal ⟨2, ![8192, 4096]⟩ .f32) (W : FVec Ideal ⟨2, ![4096, 4096]⟩ .f32)
  (Us Vt : FVec Ideal ⟨2, ![4096, 16]⟩ .f32) (row : Fin 8192) (o : Fin 4096)

/-- Nothing summed yet. -/
theorem partAt_zero : partAt X W Us Vt row o 0 = 0 := Finset.sum_range_zero _

/-- One more block of 512 features: the running sum grows by that block's 512 terms. -/
theorem partAt_add_block (n : ℕ) :
    partAt X W Us Vt row o (n + 512)
      = partAt X W Us Vt row o n + ∑ b : Fin 512, X (ix2 row (feat (n + b.val))) * adapted W Us Vt o (feat (n + b.val)) := by
  unfold partAt
  rw [Finset.sum_range_add]
  exact congrArg (_ + ·) (Finset.sum_range fun x => X (ix2 row (feat (n + x))) * adapted W Us Vt o (feat (n + x)))

/-- All 4096 features summed: the product's entry. -/
theorem partAt_full : partAt X W Us Vt row o 4096 = prodAt X W Us Vt row o := by
  unfold partAt prodAt
  rw [Finset.sum_range]
  exact Finset.sum_congr rfl fun l _ => by rw [feat_coe]

end Cert.AdaptedProduct

end
-- ==== Proof.Blocks.lean ====
import proofs.«134063_j25469156065845_2_alg».proof.Proof.Gen.KernelIdeal.Frame
import proofs.«134063_j25469156065845_2_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.AdaptedProduct

variable {F : FTy → Type} [FloatOps F]
variable (m : (ℓ : Loc nD τ sig) → Buf (Elt F) ℓ)

/-- The grid is walked with the accumulation step innermost: point t is row block t / 32, column block (t / 8) mod 4
    and step t mod 8, and each window's block index is made of these. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = t.val % 8 ∧ win0_3.index t (1 : Fin 2) = 0
    ∧ win0_4.index t (0 : Fin 2) = t.val / 32 ∧ win0_4.index t (1 : Fin 2) = t.val / 8 % 4 :=
  (by decide +kernel : ∀ t : Fin grid0.N, _)

/-- The activations' block at point t, entry (p, b): row 2048 · (t / 32) + p, feature 512 · (t mod 8) + b. -/
theorem iblk0_apply (c : Dev nD) (t : Fin cfg0.N) (p : Fin 2048) (b : Fin 512) (row : Fin 8192)
    (hr : row.val = 2048 * (t.val / 32) + p.val) :
    (iblk m c 0 t : Vec F S2048x512 .f32) (ix2 p b) = V m c main_v5 (ix2 row (feat (512 * (t.val % 8) + b.val))) := by
  unfold iblk
  rw [View.read_apply]
  show V m c main_v5 _ = V m c main_v5 _
  refine congrArg (V m c main_v5) ?_
  obtain ⟨e0, e1, -⟩ := idx_facts t
  have hk : t.val % 8 < 8 := Nat.mod_lt _ (by decide)
  funext a; apply Fin.ext
  match a with
  | ⟨0, _⟩ => show win0_0.index t (0 : Fin 2) * 2048 + 1 * p.val = row.val; rw [e0, hr]; omega
  | ⟨1, _⟩ => show win0_0.index t (1 : Fin 2) * 512 + 1 * b.val = (512 * (t.val % 8) + b.val) % 4096; rw [e1]; omega

/-- The base weight's block at point t, entry (q, b): output feature 1024 · ((t / 8) mod 4) + q, input feature
    512 · (t mod 8) + b. -/
theorem iblk1_apply (c : Dev nD) (t : Fin cfg0.N) (q : Fin 1024) (b : Fin 512) (o : Fin 4096)
    (ho : o.val = 1024 * (t.val / 8 % 4) + q.val) :
    (iblk m c 1 t : Vec F S1024x512 .f32) (ix2 q b) = V m c main_arg1 (ix2 o (feat (512 * (t.val % 8) + b.val))) := by
  unfold iblk
  rw [View.read_apply]
  show V m c main_arg1 _ = V m c main_arg1 _
  refine congrArg (V m c main_arg1) ?_
  obtain ⟨-, -, e0, e1, -⟩ := idx_facts t
  have hk : t.val % 8 < 8 := Nat.mod_lt _ (by decide)
  funext a; apply Fin.ext
  match a with
  | ⟨0, _⟩ => show win0_1.index t (0 : Fin 2) * 1024 + 1 * q.val = o.val; rw [e0, ho]; omega
  | ⟨1, _⟩ => show win0_1.index t (1 : Fin 2) * 512 + 1 * b.val = (512 * (t.val % 8) + b.val) % 4096; rw [e1]; omega

/-- The scaled left factor's block at point t, entry (q, r): output feature 1024 · ((t / 8) mod 4) + q, rank index r. -/
theorem iblk2_apply (c : Dev nD) (t : Fin cfg0.N) (q : Fin 1024) (r : Fin 16) (o : Fin 4096)
    (ho : o.val = 1024 * (t.val / 8 % 4) + q.val) :
    (iblk m c 2 t : Vec F S1024x16 .f32) (ix2 q r) = V m c main_v4 (ix2 o r) := by
  unfold iblk
  rw [View.read_apply]
  show V m c main_v4 _ = V m c main_v4 _
  refine congrArg (V m c main_v4) ?_
  obtain ⟨-, -, -, -, e0, e1, -⟩ := idx_facts t
  funext a; apply Fin.ext
  match a with
  | ⟨0, _⟩ => show win0_2.index t (0 : Fin 2) * 1024 + 1 * q.val = o.val; rw [e0, ho]; omega
  | ⟨1, _⟩ => show win0_2.index t (1 : Fin 2) * 16 + 1 * r.val = r.val; rw [e1]; omega

/-- The right factor's block at point t, entry (b, r): input feature 512 · (t mod 8) + b, rank index r. -/
theorem iblk3_apply (c : Dev nD) (t : Fin cfg0.N) (b : Fin 512) (r : Fin 16) :
    (iblk m c 3 t : Vec F S512x16 .f32) (ix2 b r) = V m c main_arg4 (ix2 (feat (512 * (t.val % 8) + b.val)) r) := by
  unfold iblk
  rw [View.read_apply]
  show V m c main_arg4 _ = V m c main_arg4 _
  refine congrArg (V m c main_arg4) ?_
  obtain ⟨-, -, -, -, -, -, e0, e1, -⟩ := idx_facts t
  have hk : t.val % 8 < 8 := Nat.mod_lt _ (by decide)
  funext a; apply Fin.ext
  match a with
  | ⟨0, _⟩ => show win0_3.index t (0 : Fin 2) * 512 + 1 * b.val = (512 * (t.val % 8) + b.val) % 4096; rw [e0]; omega
  | ⟨1, _⟩ => show win0_3.index t (1 : Fin 2) * 16 + 1 * r.val = r.val; rw [e1]; omega

/-- The region finds the activations flattened to 8192 rows. -/
theorem V_v5 (c : Dev nD) :
    V m c main_v5 = shapeCast S8192x4096 (m ((c : Thread nD τ).loc main_arg0)) shapeCasts_S4x2048x4096_S8192x4096 := by
  show StableHlo.after hostOps0 (fun b => m (c, b)) (Proc.devRef .tc main_v5) = _
  after_results
  rfl

/-- The region finds the left factor scaled column by column by s, then multiplied by the constant one. -/
theorem V_v4 (c : Dev nD) :
    V m c main_v4 = mulf (mulf (m ((c : Thread nD τ).loc main_arg2))
        (broadcastInDim S4096x16 ![0, 1] bcast_S1x16_S4096x16_0_1 (broadcastInDim S1x16 ![1] bcast_S16_S1x16_1 (m ((c : Thread nD τ).loc main_arg3)))))
      (broadcastInDim S4096x16 ![] bcast_S_S4096x16 (constant S_ .f32 0x3F800000#32)) := by
  show StableHlo.after hostOps0 (fun b => m (c, b)) (Proc.devRef .tc main_v4) = _
  after_results

end Cert.KernelIdeal.Acc

end
-- ==== Proof.Pieces.lean ====
import proofs.«134063_j25469156065845_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-! What the body leaves in the output block, in its two cases. Every load and store of the body goes through the
    whole staging buffer (offsets zero, the buffer's own extents), so a load reads the buffer's contents and the last
    store leaves its value everywhere. -/

/-- The zero offsets, as a constant function. -/
theorem hz : (![0, 0] : Fin 2 → Nat) = fun _ => 0 := funext fun a => by fin_cases a <;> rfl

/-- A point that is not the first step of its block: the one store leaves the accumulating value computed from the four
    input blocks and from what the output block held (xo). -/
theorem out_B (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1024x16 .f32) (h5 : a5.IsWhole) (a6 : Memref sig .tc .vmem S512x16 .f32) (h6 : a6.IsWhole)
    (a7 : Memref sig .tc .vmem S2048x1024 .f32) (h7 : a7.IsWhole) (hc : ¬cond0_0 i)
    (x0 : Vec F S2048x512 .f32) (x1 : Vec F S1024x512 .f32) (x2 : Vec F S1024x16 .f32) (x3 : Vec F S512x16 .f32)
    (xo : Vec F S2048x1024 .f32) :
    out0_B_4 c i a3 h3 a4 h4 a5 h5 a6 h6 a7 h7 hc x0 x1 x2 x3 xo = k0_pay2 x2 x3 x1 x0 xo := by
  unfold out0_B_4
  rw [View.read_writes_eq_canon _ _ _ (cover0_B_4 c i a3 h3 a4 h4 a5 h5 a6 h6 a7 h7 hc x0 x1 x2 x3 xo)]
  unfold kernelRun0_B
  dsimp only
  rw [View.canon_unit_zero hz]
  simp only [View.readAt_eq_ld, h3.read_unread, h4.read_unread, h5.read_unread, h6.read_unread, h7.read_unread,
    View.ld_unit_zero (S := S2048x512) hz, View.ld_unit_zero (S := S1024x512) hz, View.ld_unit_zero (S := S1024x16) hz,
    View.ld_unit_zero (S := S512x16) hz, View.ld_unit_zero (S := S2048x1024) hz]

/-- The first step of a block: the body stores zeros, reads them back, and the last store leaves the accumulating value
    computed from the four input blocks and the zero block. -/
theorem out_A (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1024x16 .f32) (h5 : a5.IsWhole) (a6 : Memref sig .tc .vmem S512x16 .f32) (h6 : a6.IsWhole)
    (a7 : Memref sig .tc .vmem S2048x1024 .f32) (h7 : a7.IsWhole) (hc : cond0_0 i)
    (x0 : Vec F S2048x512 .f32) (x1 : Vec F S1024x512 .f32) (x2 : Vec F S1024x16 .f32) (x3 : Vec F S512x16 .f32) :
    out0_A_4 c i a3 h3 a4 h4 a5 h5 a6 h6 a7 h7 hc x0 x1 x2 x3 = k0_pay2 x2 x3 x1 x0 (k0_pay1 (F := F)) := by
  unfold out0_A_4
  rw [View.read_writes_eq_canon _ _ _ (cover0_A_4 c i a3 h3 a4 h4 a5 h5 a6 h6 a7 h7 hc x0 x1 x2 x3)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x512) hz, View.ld_unit_zero (S := S1024x512) hz, View.ld_unit_zero (S := S1024x16) hz,
    View.ld_unit_zero (S := S512x16) hz]

end Cert.KernelIdeal.Acc

end
-- ==== Proof.Payload.lean ====
import proofs.«134063_j25469156065845_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Acc

open Cert.KernelIdeal Cert.KernelIdeal.Gen

/-- The dimension numbers of the low-rank product (rows of the scaled left factor against rows of the right factor). -/
abbrev D1 : DotDims S1024x16 S512x16 S1024x512 := dot_S1024x16_S512x16_S1024x512_1_1_0_0_n_n
/-- The dimension numbers of the main product (rows of the activations against rows of the adapted weight). -/
abbrev D2 : DotDims S2048x512 S1024x512 S2048x1024 := dot_S2048x512_S1024x512_S2048x1024_1_1_0_0_n_n

theorem d1_lhs0 (i : S1024x512.Idx) (q : D1.contr.Idx) : (D1.lhsIdx i q 0).val = (i 0).val := by
  unfold DotDims.lhsIdx
  rw [dif_neg (show ¬(0 : Fin S1024x16.rank) ∈ D1.lhsBatch by decide), dif_pos (show (0 : Fin S1024x16.rank) ∈ D1.lhsNonContracting by decide)]
  rfl
theorem d1_lhs1 (i : S1024x512.Idx) (q : D1.contr.Idx) : (D1.lhsIdx i q 1).val = (q ⟨0, by decide⟩).val :=
  D1.lhsIdx_val_of_single rfl i q
theorem d1_rhs0 (i : S1024x512.Idx) (q : D1.contr.Idx) : (D1.rhsIdx i q 0).val = (i 1).val := by
  unfold DotDims.rhsIdx
  rw [dif_neg (show ¬(0 : Fin S512x16.rank) ∈ D1.rhsBatch by decide), dif_pos (show (0 : Fin S512x16.rank) ∈ D1.rhsNonContracting by decide)]
  rfl
theorem d1_rhs1 (i : S1024x512.Idx) (q : D1.contr.Idx) : (D1.rhsIdx i q 1).val = (q ⟨0, by decide⟩).val :=
  D1.rhsIdx_val_of_single rfl i q

theorem d2_lhs0 (i : S2048x1024.Idx) (q : D2.contr.Idx) : (D2.lhsIdx i q 0).val = (i 0).val := by
  unfold DotDims.lhsIdx
  rw [dif_neg (show ¬(0 : Fin S2048x512.rank) ∈ D2.lhsBatch by decide), dif_pos (show (0 : Fin S2048x512.rank) ∈ D2.lhsNonContracting by decide)]
  rfl
theorem d2_lhs1 (i : S2048x1024.Idx) (q : D2.contr.Idx) : (D2.lhsIdx i q 1).val = (q ⟨0, by decide⟩).val :=
  D2.lhsIdx_val_of_single rfl i q
theorem d2_rhs0 (i : S2048x1024.Idx) (q : D2.contr.Idx) : (D2.rhsIdx i q 0).val = (i 1).val := by
  unfold DotDims.rhsIdx
  rw [dif_neg (show ¬(0 : Fin S1024x512.rank) ∈ D2.rhsBatch by decide), dif_pos (show (0 : Fin S1024x512.rank) ∈ D2.rhsNonContracting by decide)]
  rfl
theorem d2_rhs1 (i : S2048x1024.Idx) (q : D2.contr.Idx) : (D2.rhsIdx i q 1).val = (q ⟨0, by decide⟩).val :=
  D2.rhsIdx_val_of_single rfl i q

/-- The low-rank product into a zero accumulator, at entry (q, b): the sum over the rank axis of the products of
    row q of the left factor with row b of the right factor. -/
theorem mm1_apply (prec : Option ContractPrecision) (l : FVec Ideal S1024x16 .f32) (r : FVec Ideal S512x16 .f32)
    (q : Fin 1024) (b : Fin 512) :
    matmul D1 prec l r (constant (F := Ideal) S1024x512 .f32 0x00000000#32) (ix2 q b) = ∑ k : Fin 16, l (ix2 q k) * r (ix2 b k) := by
  simp only [matmul]
  rw [Ideal.matmul_constant_zero_apply, ← Equiv.sum_comp (contrEquiv1 D1 16 rfl rfl).symm]
  refine Finset.sum_congr rfl fun k _ => ?_
  have hk := contrEquiv1_symm_val D1 16 rfl rfl k
  have el : D1.lhsIdx (ix2 q b) ((contrEquiv1 D1 16 rfl rfl).symm k) = ix2 q k := funext fun a => Fin.ext (by
    match a with
    | ⟨0, _⟩ => exact d1_lhs0 _ _
    | ⟨1, _⟩ => exact (d1_lhs1 _ _).trans hk)
  have er : D1.rhsIdx (ix2 q b) ((contrEquiv1 D1 16 rfl rfl).symm k) = ix2 b k := funext fun a => Fin.ext (by
    match a with
    | ⟨0, _⟩ => exact d1_rhs0 _ _
    | ⟨1, _⟩ => exact (d1_rhs1 _ _).trans hk)
  rw [el, er]

/-- The main product into a zero accumulator, at entry (p, q): the sum over the 512 columns of the block of the
    products of row p of the activations with row q of the weight. -/
theorem mm2_apply (prec : Option ContractPrecision) (l : FVec Ideal S2048x512 .bf16) (r : FVec Ideal S1024x512 .bf16)
    (p : Fin 2048) (q : Fin 1024) :
    matmul D2 prec l r (constant (F := Ideal) S2048x1024 .f32 0x00000000#32) (ix2 p q) = ∑ b : Fin 512, l (ix2 p b) * r (ix2 q b) := by
  simp only [matmul]
  rw [Ideal.matmul_constant_zero_apply, ← Equiv.sum_comp (contrEquiv1 D2 512 rfl rfl).symm]
  refine Finset.sum_congr rfl fun k _ => ?_
  have hk := contrEquiv1_symm_val D2 512 rfl rfl k
  have el : D2.lhsIdx (ix2 p q) ((contrEquiv1 D2 512 rfl rfl).symm k) = ix2 p k := funext fun a => Fin.ext (by
    match a with
    | ⟨0, _⟩ => exact d2_lhs0 _ _
    | ⟨1, _⟩ => exact (d2_lhs1 _ _).trans hk)
  have er : D2.rhsIdx (ix2 p q) ((contrEquiv1 D2 512 rfl rfl).symm k) = ix2 q k := funext fun a => Fin.ext (by
    match a with
    | ⟨0, _⟩ => exact d2_rhs0 _ _
    | ⟨1, _⟩ => exact (d2_rhs1 _ _).trans hk)
  rw [el, er]

/-- The accumulating store's value at entry (p, q) of the output block: what the block held, plus the sum over the 512
    columns b of this step of x(p, b) · (w(q, b) + Σ_r us(q, r) · v(b, r)). -/
theorem pay2_apply (v3 : Vec Ideal S1024x16 .f32) (v5 : Vec Ideal S512x16 .f32) (v7 : Vec Ideal S1024x512 .f32)
    (v9 : Vec Ideal S2048x512 .f32) (v13 : Vec Ideal S2048x1024 .f32) (p : Fin 2048) (q : Fin 1024) :
    k0_pay2 (F := Ideal) v3 v5 v7 v9 v13 (ix2 p q)
      = v13 (ix2 p q) + ∑ b : Fin 512, v9 (ix2 p b) * (v7 (ix2 q b) + ∑ r : Fin 16, v3 (ix2 q r) * v5 (ix2 b r)) := by
  unfold k0_pay2
  simp only [shapeCast_self]
  refine (addf_apply _ _ _).trans ?_
  refine congrArg (v13 (ix2 p q) + ·) ?_
  refine (mm2_apply none _ _ p q).trans ?_
  refine Finset.sum_congr rfl fun b _ => ?_
  refine congrArg (v9 (ix2 p b) * ·) ?_
  exact congrArg (v7 (ix2 q b) + ·) (mm1_apply (some .fp32) v3 v5 q b)

/-- The resetting store's value: zero everywhere. -/
theorem pay1_apply (j : S2048x1024.Idx) : k0_pay1 (F := Ideal) j = 0 := by
  unfold k0_pay1
  exact Ideal.ofBits_zero_f32

end Cert.KernelIdeal.Acc

end
-- ==== Proof.Accum.lean ====
import proofs.«134063_j25469156065845_2_alg».proof.Proof.Blocks
import proofs.«134063_j25469156065845_2_alg».proof.Proof.Pieces
import proofs.«134063_j25469156065845_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.AdaptedProduct

/-- One accumulation step over any blocks that are the stated pieces of four arrays X, W, Us, Vt: entry (p, q) of the
    output block, whose global coordinates are (row, o), grows by the 512 terms of features k … k + 511 of the
    product's entry (row, o). -/
theorem pay2_global (v3 : Vec Ideal S1024x16 .f32) (v5 : Vec Ideal S512x16 .f32) (v7 : Vec Ideal S1024x512 .f32)
    (v9 : Vec Ideal S2048x512 .f32) (acc : Vec Ideal S2048x1024 .f32)
    (X : FVec Ideal ⟨2, ![8192, 4096]⟩ .f32) (W : FVec Ideal ⟨2, ![4096, 4096]⟩ .f32) (Us Vt : FVec Ideal ⟨2, ![4096, 16]⟩ .f32)
    (p : Fin 2048) (q : Fin 1024) (row : Fin 8192) (o : Fin 4096) (k : ℕ)
    (h0 : ∀ b : Fin 512, v9 (ix2 p b) = X (ix2 row (feat (k + b.val))))
    (h1 : ∀ b : Fin 512, v7 (ix2 q b) = W (ix2 o (feat (k + b.val))))
    (h2 : ∀ r : Fin 16, v3 (ix2 q r) = Us (ix2 o r))
    (h3 : ∀ (b : Fin 512) (r : Fin 16), v5 (ix2 b r) = Vt (ix2 (feat (k + b.val)) r)) :
    k0_pay2 (F := Ideal) v3 v5 v7 v9 acc (ix2 p q)
      = acc (ix2 p q) + ∑ b : Fin 512, X (ix2 row (feat (k + b.val))) * adapted W Us Vt o (feat (k + b.val)) := by
  refine (pay2_apply v3 v5 v7 v9 acc p q).trans ?_
  refine congrArg (acc (ix2 p q) + ·) ?_
  refine Finset.sum_congr rfl fun b _ => ?_
  unfold adapted
  rw [h0 b, h1 b]
  refine congrArg (X (ix2 row (feat (k + b.val))) * ·) ?_
  refine congrArg (W (ix2 o (feat (k + b.val))) + ·) (Finset.sum_congr rfl fun r _ => ?_)
  rw [h2 r, h3 b r]

variable (m : (ℓ : Loc nD τ sig) → Buf (Elt Ideal) ℓ)

/-- The four arrays as the region finds them: the flattened activations, the base weight, the scaled left factor,
    the right factor. -/
abbrev Xr (c : Dev nD) : FVec Ideal ⟨2, ![8192, 4096]⟩ .f32 := V m c main_v5
abbrev Wr (c : Dev nD) : FVec Ideal ⟨2, ![4096, 4096]⟩ .f32 := V m c main_arg1
abbrev Ur (c : Dev nD) : FVec Ideal ⟨2, ![4096, 16]⟩ .f32 := V m c main_v4
abbrev Vr (c : Dev nD) : FVec Ideal ⟨2, ![4096, 16]⟩ .f32 := V m c main_arg4

/-- If the output block's entry (p, q) held the running sum over the features before grid point t's, the body leaves
    there the running sum through t's 512 features. -/
theorem step_part (c : Dev nD) (t : Fin cfg0.N) (acc : Vec Ideal S2048x1024 .f32) (p : Fin 2048) (q : Fin 1024)
    (row : Fin 8192) (o : Fin 4096) (hr : row.val = 2048 * (t.val / 32) + p.val) (ho : o.val = 1024 * (t.val / 8 % 4) + q.val)
    (hacc : acc (ix2 p q) = partAt (Xr m c) (Wr m c) (Ur m c) (Vr m c) row o (512 * (t.val % 8))) :
    k0_pay2 (F := Ideal) (iblk m c 2 t) (iblk m c 3 t) (iblk m c 1 t) (iblk m c 0 t) acc (ix2 p q)
      = partAt (Xr m c) (Wr m c) (Ur m c) (Vr m c) row o (512 * (t.val % 8) + 512) := by
  rw [pay2_global (iblk m c 2 t) (iblk m c 3 t) (iblk m c 1 t) (iblk m c 0 t) acc (Xr m c) (Wr m c) (Ur m c) (Vr m c)
      p q row o (512 * (t.val % 8))
      (fun b => iblk0_apply m c t p b row hr) (fun b => iblk1_apply m c t q b o ho)
      (fun r => iblk2_apply m c t q r o ho) (fun b r => iblk3_apply m c t b r),
    hacc, partAt_add_block]

/-- THE RUNNING SUM. After grid point n the output block's entry (p, q) holds the sum over the first
    512 · (n mod 8 + 1) features of the product's entry at the block's global coordinates — by induction on the point:
    a point with n mod 8 = 0 starts from zero, any other continues from the point before, which has the same block. -/
theorem outsAt_eq (c : Dev nD) (n : ℕ) : ∀ (hn : n < cfg0.N) (p : Fin 2048) (q : Fin 1024) (row : Fin 8192) (o : Fin 4096),
    row.val = 2048 * (n / 32) + p.val → o.val = 1024 * (n / 8 % 4) + q.val →
    outsAt0 m c n hn (ix2 p q) = partAt (Xr m c) (Wr m c) (Ur m c) (Vr m c) row o (512 * (n % 8) + 512) := by
  induction n with
  | zero =>
    intro hn p q row o hr ho
    refine (congrFun ((outsAt0_A m c ⟨0, hn⟩ rfl).trans (out_A ..)) (ix2 p q)).trans ?_
    refine step_part m c ⟨0, hn⟩ _ p q row o hr ho ?_
    rw [pay1_apply]
    exact (partAt_zero ..).symm
  | succ n ih =>
    intro hn p q row o hr ho
    by_cases h0 : (n + 1) % 8 = 0
    · refine (congrFun ((outsAt0_A m c ⟨n + 1, hn⟩ h0).trans (out_A ..)) (ix2 p q)).trans ?_
      refine step_part m c ⟨n + 1, hn⟩ _ p q row o hr ho ?_
      rw [pay1_apply]
      show 0 = partAt _ _ _ _ row o (512 * ((n + 1) % 8))
      rw [h0]
      exact (partAt_zero ..).symm
    · refine (congrFun ((outsAt0_B m c ⟨n + 1, hn⟩ h0).trans (out_B ..)) (ix2 p q)).trans ?_
      refine step_part m c ⟨n + 1, hn⟩ _ p q row o hr ho ?_
      show outsAt0 m c n _ (ix2 p q) = partAt _ _ _ _ row o (512 * ((n + 1) % 8))
      rw [ih (Nat.lt_of_succ_lt hn) p q row o (by omega) (by omega)]
      exact congrArg (partAt _ _ _ _ row o) (by omega)

end Cert.KernelIdeal.Acc

end
-- ==== Proof.Final.lean ====
import proofs.«134063_j25469156065845_2_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.AdaptedProduct

variable (m : (ℓ : Loc nD τ sig) → Buf (Elt Ideal) ℓ) (ρ : Dev nD → PrngReg)

/-- What the region's result array ends holding: the product of the flattened activations with the transposed
    adapted weight, over the arrays as the region finds them. -/
abbrev G (c : Dev nD) : FVec Ideal ⟨2, ![8192, 4096]⟩ .f32 :=
  out2 (Xr m c) (Wr m c) (Ur m c) (Vr m c)

/-- No host line before the region writes the base weight or the right factor, so the region finds them as launched. -/
theorem G_args (c : Dev nD) :
    G m c = out2 (Xr m c) (m ((c : Thread nD τ).loc main_arg1)) (Ur m c) (m ((c : Thread nD τ).loc main_arg4)) := by
  show out2 (Xr m c) (V m c main_arg1) (Ur m c) (V m c main_arg4) = _
  rw [V_main_arg1, V_main_arg4]

/-- Entry (p, q) of the output block of point t sits at row 2048 · (t / 32) + p, column 1024 · ((t / 8) mod 4) + q. -/
theorem emb4 (t : Fin cfg0.N) (p : Fin 2048) (q : Fin 1024) (row : Fin 8192) (o : Fin 4096)
    (hr : row.val = 2048 * (t.val / 32) + p.val) (ho : o.val = 1024 * (t.val / 8 % 4) + q.val) :
    ((cfg0.win 4).blk t).view.emb (ix2 p q) = ix2 row o := by
  obtain ⟨-, -, -, -, -, -, -, -, e0, e1⟩ := idx_facts t
  funext a; apply Fin.ext
  match a with
  | ⟨0, _⟩ => show win0_4.index t (0 : Fin 2) * 2048 + 1 * p.val = row.val; rw [e0, hr]; omega
  | ⟨1, _⟩ => show win0_4.index t (1 : Fin 2) * 1024 + 1 * q.val = o.val; rw [e1, ho]; omega

/-- A write-back point (the last accumulation step of its block) writes back that block of the product. -/
theorem flushed_eq (c : Dev nD) (t : Fin cfg0.N) (hf : (cfg0.win 4).flush t = true) :
    (dats m 0 c).flushed 4 t = ((cfg0.win 4).blk t).view.read (Elt Ideal) (G m c) := by
  have h7 : t.val % 8 = 7 := (flush0_4 t).mp hf
  have hN : t.val < 128 := lt_of_lt_of_eq t.isLt (show cfg0.N = 128 from N_0)
  show (cfg0.win 4).cut (grid0.coords t) ((dats m 0 c).after 4 t) = _
  rw [after0_4]
  funext y
  obtain ⟨p, q, rfl⟩ : ∃ (p : Fin 2048) (q : Fin 1024), y = ix2 p q := ⟨y 0, y 1, eq_ix2 y⟩
  have hp : p.val < 2048 := p.isLt
  have hq : q.val < 1024 := q.isLt
  show outsAt0 m c t.val t.isLt (ix2 p q) = G m c (((cfg0.win 4).blk t).view.emb (ix2 p q))
  rw [emb4 t p q ⟨2048 * (t.val / 32) + p.val, by omega⟩ ⟨1024 * (t.val / 8 % 4) + q.val, by omega⟩ rfl rfl,
    outsAt_eq m c t.val t.isLt p q ⟨2048 * (t.val / 32) + p.val, by omega⟩ ⟨1024 * (t.val / 8 % 4) + q.val, by omega⟩ rfl rfl,
    h7]
  exact partAt_full ..

/-- An index of the result array is in point t's block iff each coordinate is in the block's range on its axis. -/
theorem mem_blk4 (t : Fin cfg0.N) (i : S8192x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v6).slice (win0_4.rect t)).set ↔ _
  rw [View.set_slice_whole, Rect.mem_set_unit]
  exact Iff.rfl

/-- Every entry (r, o) of the result array is written back, by the last step of block (r / 2048, o / 1024). -/
theorem cover4 (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  have hlt : 32 * ((i 0).val / 2048) + 8 * ((i 1).val / 1024) + 7 < cfg0.N := by rw [hN]; omega
  obtain ⟨-, -, -, -, -, -, -, -, e0, e1⟩ := idx_facts ⟨_, hlt⟩
  refine ⟨⟨_, hlt⟩, (flush0_4 _).mpr (by show (32 * ((i 0).val / 2048) + 8 * ((i 1).val / 1024) + 7) % 8 = 7; omega), ?_⟩
  rw [mem_blk4]
  intro a
  match a with
  | ⟨0, _⟩ =>
    show win0_4.index ⟨_, hlt⟩ (0 : Fin 2) * 2048 ≤ (i 0).val ∧ (i 0).val < win0_4.index ⟨_, hlt⟩ (0 : Fin 2) * 2048 + 2048
    rw [e0]; show (32 * ((i 0).val / 2048) + 8 * ((i 1).val / 1024) + 7) / 32 * 2048 ≤ _ ∧ _ < (32 * ((i 0).val / 2048) + 8 * ((i 1).val / 1024) + 7) / 32 * 2048 + 2048; omega
  | ⟨1, _⟩ =>
    show win0_4.index ⟨_, hlt⟩ (1 : Fin 2) * 1024 ≤ (i 1).val ∧ (i 1).val < win0_4.index ⟨_, hlt⟩ (1 : Fin 2) * 1024 + 1024
    rw [e1]; show (32 * ((i 0).val / 2048) + 8 * ((i 1).val / 1024) + 7) / 8 % 4 * 1024 ≤ _ ∧ _ < (32 * ((i 0).val / 2048) + 8 * ((i 1).val / 1024) + 7) / 8 % 4 * 1024 + 1024; omega

/-- So the region's result array ends holding the product. -/
theorem final4 (c : Dev nD) : (dats m 0 c).arrAt 4 cfg0.N = G m c :=
  (dats m 0 c).arrAt_eq_of_cover 4 (G m c) (flushed_eq m c) cover4

/-- The host line after the region reshapes it to [4, 2048, 4096]. -/
theorem tail_v7 (c : Dev nD) :
    Pipeline.afterTail₀ cfgs (dats m) 0 (V0 m) [hostOps1] c main_v7
      = shapeCast S4x2048x4096 (G m c) shapeCasts_S8192x4096_S4x2048x4096 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6) = G m c :=
    (Pipeline.withArrays_arr spec0 launch0.win.arr_inj c _ _ 4).trans (final4 m c)
  rw [e]
  rfl

/-- The kernel's run, read: every weakly fair execution terminates with the result at the reshaped product of the
    arrays the region finds, and the five arguments as launched. -/
theorem run : θ_run defs (onTc (τ := τ) (main (F := Ideal))) ⟨m, fun _ => 0, ρ⟩ fun r => ∀ c : Dev nD,
      r.2.mem ((c : Thread nD τ).loc main_v7) = shapeCast S4x2048x4096 (G m c) shapeCasts_S8192x4096_S4x2048x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.KernelIdeal.Acc

end
-- ==== Proof.RefValue.lean ====
import proofs.«134063_j25469156065845_2_alg».proof.Proof.Gen.ReferenceIdeal.Read
import proofs.«134063_j25469156065845_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.AdaptedProduct

/-- THE TWO SIDES ARE ONE FUNCTION. Take the activations x flattened to 8192 rows (X2), and the left factor scaled
    column by column by s and then multiplied by the constant one (Us). The product of X2 with the transposed adapted
    weight W + Us · Vtᵀ, reshaped back to [4, 2048, 4096], is the reference's result: at (b, s, o) both are

      Σ_l x(b, s, l) · (W(o, l) + Σ_r (U(o, r) · s(r)) · Vt(l, r)),

    the flattening being the same row-major position on both sides, the reference's factor one in front of the rank
    sum and the other side's factor one on each scaled entry both dropping out (1 · a = a · 1 = a on the extended
    reals), and the reference's sum over all 4096 features being the same sum. -/
theorem product_eq_reference (x : FVec Ideal ⟨3, ![4, 2048, 4096]⟩ .f32) (W : FVec Ideal ⟨2, ![4096, 4096]⟩ .f32)
    (U : FVec Ideal ⟨2, ![4096, 16]⟩ .f32) (sv : FVec Ideal ⟨1, ![16]⟩ .f32) (Vt : FVec Ideal ⟨2, ![4096, 16]⟩ .f32)
    (X2 : FVec Ideal ⟨2, ![8192, 4096]⟩ .f32) (Us : FVec Ideal ⟨2, ![4096, 16]⟩ .f32)
    (h1 : (⟨3, ![4, 2048, 4096]⟩ : Shape).ShapeCasts ⟨2, ![8192, 4096]⟩)
    (h2 : (⟨2, ![8192, 4096]⟩ : Shape).ShapeCasts ⟨3, ![4, 2048, 4096]⟩)
    (hb : (⟨0, ![]⟩ : Shape).BroadcastsInDim ⟨2, ![4096, 16]⟩ ![])
    (hX : X2 = shapeCast ⟨2, ![8192, 4096]⟩ x h1)
    (hUs : Us = mulf (val_main_v2 (F := Ideal) U sv)
      (broadcastInDim ⟨2, ![4096, 16]⟩ ![] hb (constant (F := Ideal) ⟨0, ![]⟩ .f32 0x3F800000#32))) :
    shapeCast ⟨3, ![4, 2048, 4096]⟩ (out2 X2 W Us Vt) h2 = val_main_v7 (F := Ideal) x W U sv Vt := by
  subst hX hUs
  funext i
  obtain ⟨b, s, o, rfl⟩ : ∃ (b : Fin 4) (s : Fin 2048) (o : Fin 4096), i = ix3 b s o := ⟨i 0, i 1, i 2, eq_ix3 i⟩
  have hbl : b.val < 4 := b.isLt
  have hsl : s.val < 2048 := s.isLt
  have hol : o.val < 4096 := o.isLt
  rw [shapeCast_apply _ h2 (ix3 b s o) (ix2 (⟨2048 * b.val + s.val, by omega⟩ : Fin 8192) o) (by
    rw [Shape.rowMajor_val_two, Shape.rowMajor_val_three]
    show (2048 * b.val + s.val) * 4096 + o.val = (b.val * 2048 + s.val) * 4096 + o.val
    omega)]
  rw [val_main_v7_apply]
  show prodAt _ W _ Vt _ o = _
  unfold prodAt
  refine Finset.sum_congr rfl fun l _ => ?_
  have hll : l.val < 4096 := l.isLt
  have eL : lidx_main_v7 (ix3 b s o) l = ix3 b s l := funext fun a => Fin.ext (by
    match a with
    | ⟨0, _⟩ => rfl
    | ⟨1, _⟩ => rfl
    | ⟨2, _⟩ => rfl)
  have eR : ridx_main_v7 (ix3 b s o) l = ix2 o l := funext fun a => Fin.ext (by
    match a with
    | ⟨0, _⟩ => rfl
    | ⟨1, _⟩ => rfl)
  rw [eL, eR, shapeCast_apply x h1 (ix2 (⟨2048 * b.val + s.val, by omega⟩ : Fin 8192) l) (ix3 b s l) (by
    rw [Shape.rowMajor_val_two, Shape.rowMajor_val_three]
    show (b.val * 2048 + s.val) * 4096 + l.val = (2048 * b.val + s.val) * 4096 + l.val
    omega)]
  refine congrArg (x (ix3 b s l) * ·) ?_
  rw [val_main_v6_apply, val_main_v5_apply, val_main_v4_apply, val_main_cst_apply, val_main_v3_apply]
  unfold adapted
  rw [Ideal.addf_def, Ideal.mulf_def, Ideal.ofBits_def, Ideal.ofBits_one_f32, one_mul]
  refine congrArg (W (ix2 o l) + ·) (Finset.sum_congr rfl fun r _ => ?_)
  have eL3 : lidx_main_v3 (ix2 o l) r = ix2 o r := funext fun a => Fin.ext (by
    match a with
    | ⟨0, _⟩ => rfl
    | ⟨1, _⟩ => rfl)
  have eR3 : ridx_main_v3 (ix2 o l) r = ix2 l r := funext fun a => Fin.ext (by
    match a with
    | ⟨0, _⟩ => rfl
    | ⟨1, _⟩ => rfl)
  rw [eL3, eR3, mulf_apply, broadcastInDim_scalar_apply, constant_apply, Ideal.ofBits_one_f32, mul_one]

end Cert.ReferenceIdeal.RefValue

end
-- ==== Proof.lean ====
/- The kernel multiplies activations x : [4, 2048, 4096] by a weight adapted by a rank-16 update: with
   Us = (U · s) · 1 (the left factor scaled column by column, prepared on the host) it computes, over a grid of
   4 × 4 row and column blocks and 8 accumulation steps of 512 input features each,

     out(b, s, o) = Σ_{step k} Σ_{j < 512} x(b, s, 512 k + j) · (W(o, 512 k + j) + Σ_r Us(o, r) · V(512 k + j, r)),

   the output block zeroed at step 0, added to at every step, and written back after step 7. The reference forms the
   adapted weight W + 1 · (U · s) Vᵀ once and contracts x with it over all 4096 input features. At the ideal instance
   (floats are extended reals, every operation exact, the roundings to bf16 the identity) both are

     out(b, s, o) = Σ_l x(b, s, l) · (W(o, l) + Σ_r (U(o, r) · s(r)) · V(l, r)).

   The proof reads the kernel's running sum off the generated frame run point by point (Accum), opens the final array
   from the write-back blocks (Final), and identifies the result with the reference's last stage index by index
   (RefValue). Only associativity and commutativity of + and a · 1 = 1 · a = a are used, which hold on all of the
   extended reals, so the finiteness precondition is never opened. -/
import proofs.«134063_j25469156065845_2_alg».proof.Defs
import proofs.«134063_j25469156065845_2_alg».proof.Proof.Gen.Kernel
import proofs.«134063_j25469156065845_2_alg».proof.Proof.Gen.Kernel.Frame
import proofs.«134063_j25469156065845_2_alg».proof.Proof.Gen.KernelIdeal
import proofs.«134063_j25469156065845_2_alg».proof.Proof.Gen.KernelIdeal.Frame
import proofs.«134063_j25469156065845_2_alg».proof.Proof.Gen.ReferenceIdeal
import proofs.«134063_j25469156065845_2_alg».proof.Proof.Gen.ReferenceIdeal.Run
import proofs.«134063_j25469156065845_2_alg».proof.Proof.Gen.ReferenceIdeal.Read
import proofs.«134063_j25469156065845_2_alg».proof.Proof.Gen.Pre_finite_inputs
import proofs.«134063_j25469156065845_2_alg».proof.Proof.Final
import proofs.«134063_j25469156065845_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is nine host operations in a row: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the reshaped product
    Σ_l x(b, s, l) · (W(o, l) + Σ_r (U(o, r) · s(r)) · V(l, r)) in their result. -/
theorem algebraic : Cert.algebraic_KernelIdeal_ReferenceIdeal := by
  intro m ρ m' ρ' _ hagree
  refine ⟨fun c => shapeCast Cert.KernelIdeal.S4x2048x4096 (Cert.KernelIdeal.Acc.G m c)
    Cert.KernelIdeal.Gen.shapeCasts_S8192x4096_S4x2048x4096, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2.1,
    (hagree c).2.2.2.2]
  show _ = shapeCast Cert.KernelIdeal.S4x2048x4096 (Cert.KernelIdeal.Acc.G m c) _
  rw [Cert.KernelIdeal.Acc.G_args]
  exact (Cert.ReferenceIdeal.RefValue.product_eq_reference _ _ _ _ _ (Cert.KernelIdeal.Acc.Xr m c) (Cert.KernelIdeal.Acc.Ur m c)
    Cert.KernelIdeal.Gen.shapeCasts_S4x2048x4096_S8192x4096 Cert.KernelIdeal.Gen.shapeCasts_S8192x4096_S4x2048x4096
    Cert.KernelIdeal.Gen.bcast_S_S4096x16 (Cert.KernelIdeal.Acc.V_v5 m c) (Cert.KernelIdeal.Acc.V_v4 m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
